-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S1024x256 : Shape := ⟨2, ![1024, 256]⟩
abbrev S1024 : Shape := ⟨1, ![1024]⟩
abbrev S64x1024 : Shape := ⟨2, ![64, 1024]⟩
abbrev S64 : Shape := ⟨1, ![64]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S65536x256 .f32) (main_arg1 : FVec F S1024x256 .f32) (main_arg2 : FVec F S1024 .f32) (main_arg3 : FVec F S64x1024 .f32) (main_arg4 : FVec F S64 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_v13 main_v16
-- ==== Kernel.lean ====
abbrev S65536x256 : Shape := ⟨2, ![65536, 256]⟩
abbrev S1024x256 : Shape := ⟨2, ![1024, 256]⟩
abbrev S1024 : Shape := ⟨1, ![1024]⟩
abbrev S64x1024 : Shape := ⟨2, ![64, 1024]⟩
abbrev S64 : Shape := ⟨1, ![64]⟩
abbrev S256x1024 : Shape := ⟨2, ![256, 1024]⟩
abbrev S_ : Shape := ⟨0, ![]⟩
abbrev S1x1024 : Shape := ⟨2, ![1, 1024]⟩
abbrev S1024x64 : Shape := ⟨2, ![1024, 64]⟩
abbrev S1x64 : Shape := ⟨2, ![1, 64]⟩
abbrev S65536x64 : Shape := ⟨2, ![65536, 64]⟩
abbrev S2048x256 : Shape := ⟨2, ![2048, 256]⟩
abbrev S2048x64 : Shape := ⟨2, ![2048, 64]⟩
abbrev S2048 : Shape := ⟨1, ![2048]⟩
abbrev S2048x1 : Shape := ⟨2, ![2048, 1]⟩
abbrev S2048x1024 : Shape := ⟨2, ![2048, 1024]⟩

abbrev nBuf : Space → Nat
  | .hbm => 29
  | .vmem => 9
  | .smem => 0
  | _ => 0

abbrev bufTy : (tb : Table) → Fin (tcTables nBuf tb) → BufTy
  | .hbm, ⟨0, _⟩ => ⟨S65536x256, .f32⟩
  | .hbm, ⟨1, _⟩ => ⟨S1024x256, .f32⟩
  | .hbm, ⟨2, _⟩ => ⟨S1024, .f32⟩
  | .hbm, ⟨3, _⟩ => ⟨S64x1024, .f32⟩
  | .hbm, ⟨4, _⟩ => ⟨S64, .f32⟩
  | .hbm, ⟨5, _⟩ => ⟨S256x1024, .f32⟩
  | .hbm, ⟨6, _⟩ => ⟨S_, .f32⟩
  | .hbm, ⟨7, _⟩ => ⟨S256x1024, .f32⟩
  | .hbm, ⟨8, _⟩ => ⟨S256x1024, .f32⟩
  | .hbm, ⟨9, _⟩ => ⟨S256x1024, .bf16⟩
  | .hbm, ⟨10, _⟩ => ⟨S1024x256, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024, .f32⟩
  | .hbm, ⟨24, _⟩ => ⟨S1x1024, .f32⟩
  | .hbm, ⟨25, _⟩ => ⟨S1024x64, .f32⟩
  | .hbm, ⟨26, _⟩ => ⟨S1024x64, .bf16⟩
  | .hbm, ⟨27, _⟩ => ⟨S1x64, .f32⟩
  | .hbm, ⟨28, _⟩ => ⟨S65536x64, .f32⟩
  | .local _ .vmem, ⟨0, _⟩ => ⟨S2048x256, .f32⟩
  | .local _ .vmem, ⟨1, _⟩ => ⟨S2048x256, .f32⟩
  | .local _ .vmem, ⟨2, _⟩ => ⟨S256x1024, .bf16⟩
  | .local _ .vmem, ⟨3, _⟩ => ⟨S1x1024, .f32⟩
  | .local _ .vmem, ⟨4, _⟩ => ⟨S1x1024, .f32⟩
  | .local _ .vmem, ⟨5, _⟩ => ⟨S1024x64, .bf16⟩
  | .local _ .vmem, ⟨6, _⟩ => ⟨S1x64, .f32⟩
  | .local _ .vmem, ⟨7, _⟩ => ⟨S2048x64, .f32⟩
  | .local _ .vmem, ⟨8, _⟩ => ⟨S2048x64, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S1024x256_S256x1024_1_0 : S1024x256.Transposes [1, 0] S256x1024
  bcast_S_S256x1024 : S_.BroadcastsInDim S256x1024 (![] : Fin 0 → Fin S256x1024.rank)
  bitsLt_bf16_f32 : FTy.bits .bf16 < FTy.bits .f32
  reducesTo_S1024x256_S1024_d1 : S1024x256.ReducesTo [1] S1024
  h_S_ : 0 < S_.numel
  shapeCasts_S1024_S1x1024 : S1024.ShapeCasts S1x1024
  bcast_S_S1024 : S_.BroadcastsInDim S1024 (![] : Fin 0 → Fin S1024.rank)
  transposes_S64x1024_S1024x64_1_0 : S64x1024.Transposes [1, 0] S1024x64
  shapeCasts_S64_S1x64 : S64.ShapeCasts S1x64
  inb_S2048x256_S2048x256_0_0 : ∀ a, (![0, 0] : Fin 2 → Nat) a + S2048x256.size a ≤ S2048x256.size a
  h_S2048x256 : 0 < S2048x256.numel
  reduces_S2048x256_S2048 : S2048x256.Reduces [1] S2048
  shapeCasts_S2048_S2048x1 : S2048.ShapeCasts S2048x1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  broadcasts_S2048x1_S2048x1024 : S2048x1.Broadcasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  dot_S2048x256_S256x1024_S2048x1024_1_0_0_1_n_n_wf : DotDims.WF S2048x256 S256x1024 S2048x1024 [1] [0] [0] [1] [] []
  dot_S2048x1024_S1024x64_S2048x64_1_0_0_1_n_n_wf : DotDims.WF S2048x1024 S1024x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .bf16 = 32 ∨ (Rect.block (s := S256x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S1024x64.size a
  hwx0_4 : ∀ i : grid0.Coords, EltTy.bits .bf16 = 32 ∨ (Rect.block (s := S1024x64) S1024x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x64.size a ≤ S65536x64.size a
  hwx0_6 : ∀ i : grid0.Coords, EltTy.bits .f32 = 32 ∨ (Rect.block (s := S65536x64) S2048x64.size (cc0_transform_6 i) (hinb0_6 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1024x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S2048x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S65536x256 : Shape := ⟨2, ![65536, 256]⟩
abbrev S1024x256 : Shape := ⟨2, ![1024, 256]⟩
abbrev S1024 : Shape := ⟨1, ![1024]⟩
abbrev S64x1024 : Shape := ⟨2, ![64, 1024]⟩
abbrev S64 : Shape := ⟨1, ![64]⟩
abbrev S_ : Shape := ⟨0, ![]⟩
abbrev S65536 : Shape := ⟨1, ![65536]⟩
abbrev S65536x1 : Shape := ⟨2, ![65536, 1]⟩
abbrev S65536x1024 : Shape := ⟨2, ![65536, 1024]⟩
abbrev S1x1024 : Shape := ⟨2, ![1, 1024]⟩
abbrev S65536x64 : Shape := ⟨2, ![65536, 64]⟩
abbrev S1x64 : Shape := ⟨2, ![1, 64]⟩

abbrev nBuf : Space → Nat
  | .hbm => 37
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S1024x256, .f32⟩
  | .hbm, ⟨2, _⟩ => ⟨S1024, .f32⟩
  | .hbm, ⟨3, _⟩ => ⟨S64x1024, .f32⟩
  | .hbm, ⟨4, _⟩ => ⟨S64, .f32⟩
  | .hbm, ⟨5, _⟩ => ⟨S65536x256, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S1024x256, .f32⟩
  | .hbm, ⟨10, _⟩ => ⟨S_, .f32⟩
  | .hbm, ⟨11, _⟩ => ⟨S1024, .f32⟩
  | .hbm, ⟨12, _⟩ => ⟨S65536x1024, .f32⟩
  | .hbm, ⟨13, _⟩ => ⟨S_, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x1024, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S65536x1024, .f32⟩
  | .hbm, ⟨31, _⟩ => ⟨S65536x1024, .f32⟩
  | .hbm, ⟨32, _⟩ => ⟨S65536x1024, .f32⟩
  | .hbm, ⟨33, _⟩ => ⟨S65536x64, .f32⟩
  | .hbm, ⟨34, _⟩ => ⟨S1x64, .f32⟩
  | .hbm, ⟨35, _⟩ => ⟨S65536x64, .f32⟩
  | .hbm, ⟨36, _⟩ => ⟨S65536x64, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  bcast_S65536_S65536x1_0 : S65536.BroadcastsInDim S65536x1 (![0] : Fin 1 → Fin S65536x1.rank)
  reducesTo_S1024x256_S1024_d1 : S1024x256.ReducesTo [1] S1024
  bcast_S_S65536x1024 : S_.BroadcastsInDim S65536x1024 (![] : Fin 0 → Fin S65536x1024.rank)
  bcast_S65536x1_S65536x1024_0_1 : S65536x1.BroadcastsInDim S65536x1024 (![0, 1] : Fin 2 → Fin S65536x1024.rank)
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S_S1024 : S_.BroadcastsInDim S1024 (![] : Fin 0 → Fin S1024.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  dot_S65536x256_S1024x256_S65536x1024_1_1_0_0_n_n_wf : DotDims.WF S65536x256 S1024x256 S65536x1024 [1] [1] [0] [0] [] []
  dot_S65536x1024_S64x1024_S65536x64_1_1_0_0_n_n_wf : DotDims.WF S65536x1024 S64x1024 S65536x64 [1] [1] [0] [0] [] []

variable [Facts₀]

def dot_S65536x256_S1024x256_S65536x1024_1_1_0_0_n_n : DotDims S65536x256 S1024x256 S65536x1024 where
  lhsContracting := [1]
  rhsContracting := [1]
  lhsNonContracting := [0]
  rhsNonContracting := [0]
  lhsBatch := []
  rhsBatch := []
  wf := dot_S65536x256_S1024x256_S65536x1024_1_1_0_0_n_n_wf
def dot_S65536x1024_S64x1024_S65536x64_1_1_0_0_n_n : DotDims S65536x1024 S64x1024 S65536x64 where
  lhsContracting := [1]
  rhsContracting := [1]
  lhsNonContracting := [0]
  rhsNonContracting := [0]
  lhsBatch := []
  rhsBatch := []
  wf := dot_S65536x1024_S64x1024_S65536x64_1_1_0_0_n_n_wf

class Facts : Prop extends Facts₀ where

variable [Facts]
-- ==== Proof.RbfSpec.lean ====
/-
  What both programs compute, as ONE function of the five argument arrays, index by index, on the extended reals:

    out[n, o] = Σ_c exp( -‖x_n - c_c‖² / (2·σ_c² + ε) ) · W[o, c] + b[o],

  with the squared distance in its expanded form ‖x_n‖² - 2·⟨x_n, c_c⟩ + ‖c_c‖² and the two squared norms summed
  from the zero word, exactly as the reference spells them. The float literals stay as their bit patterns.
-/
import Idealize.ShloMosaic.PureOps.Ideal
import Idealize.ShloMosaic.Lib.ValueIdx

noncomputable section

open scoped BigOperators

namespace Cert.Rbf

open Idealize.ShloMosaic Idealize.ShloMosaic.ValueIdx

/-- The expanded squared distance between row n of x and centre c. -/
def dist (x : (⟨2, ![65536, 256]⟩ : Shape).Idx → EReal) (cen : (⟨2, ![1024, 256]⟩ : Shape).Idx → EReal)
    (n : Fin 65536) (c : Fin 1024) : EReal :=
  ((Ideal.ofBits .f32 0x00000000#32 + ∑ d : Fin 256, x (ix2 n d) * x (ix2 n d))
      - Ideal.ofBits .f32 0x40000000#32 * ∑ d : Fin 256, x (ix2 n d) * cen (ix2 c d))
    + (Ideal.ofBits .f32 0x00000000#32 + ∑ d : Fin 256, cen (ix2 c d) * cen (ix2 c d))

/-- The divisor of centre c: twice its squared width plus the small constant. -/
def width (sg : (⟨1, ![1024]⟩ : Shape).Idx → EReal) (c : Fin 1024) : EReal :=
  Ideal.ofBits .f32 0x40000000#32 * (sg (ix1 c) * sg (ix1 c)) + Ideal.ofBits .f32 0x322BCC77#32

/-- The radial basis activation of row n at centre c. -/
def rbf (x : (⟨2, ![65536, 256]⟩ : Shape).Idx → EReal) (cen : (⟨2, ![1024, 256]⟩ : Shape).Idx → EReal)
    (sg : (⟨1, ![1024]⟩ : Shape).Idx → EReal) (n : Fin 65536) (c : Fin 1024) : EReal :=
  Ideal.exp (Ideal.div (-(dist x cen n c)) (width sg c))

/-- The network's output: the activations of row n projected by row o of W, plus the bias. -/
def out (x : (⟨2, ![65536, 256]⟩ : Shape).Idx → EReal) (cen : (⟨2, ![1024, 256]⟩ : Shape).Idx → EReal)
    (sg : (⟨1, ![1024]⟩ : Shape).Idx → EReal) (W : (⟨2, ![64, 1024]⟩ : Shape).Idx → EReal)
    (b : (⟨1, ![64]⟩ : Shape).Idx → EReal) : (⟨2, ![65536, 64]⟩ : Shape).Idx → EReal :=
  fun i => (∑ c : Fin 1024, rbf x cen sg (i 0) c * W (ix2 (i 1) c)) + b (ix1 (i 1))

/-- The same output in the kernel's arrangement, as a function of the six arrays its region stages: x, the matrix
    A (256 × 1024) it multiplies x by, the row of squared centre norms, the row of factors the exponent is
    multiplied by, the matrix (1024 × 64) the activations are multiplied by, and the bias row. -/
def kernelForm (a0 : (⟨2, ![65536, 256]⟩ : Shape).Idx → EReal) (a1 : (⟨2, ![256, 1024]⟩ : Shape).Idx → EReal)
    (a2 a3 : (⟨2, ![1, 1024]⟩ : Shape).Idx → EReal) (a4 : (⟨2, ![1024, 64]⟩ : Shape).Idx → EReal)
    (a5 : (⟨2, ![1, 64]⟩ : Shape).Idx → EReal) : (⟨2, ![65536, 64]⟩ : Shape).Idx → EReal :=
  fun i => (∑ c : Fin 1024, Ideal.exp ((((∑ d : Fin 256, a0 (ix2 (i 0) d) * a0 (ix2 (i 0) d))
            + ∑ d : Fin 256, a0 (ix2 (i 0) d) * a1 (ix2 d c)) + a2 (ix2 (0 : Fin 1) c)) * a3 (ix2 (0 : Fin 1) c))
          * a4 (ix2 c (i 1)))
        + a5 (ix2 (0 : Fin 1) (i 1))

end Cert.Rbf

end
-- ==== Proof.RbfReference.lean ====
/-
  The reference computes the specification: its result, read one host operation at a time, is `Cert.Rbf.out` of its
  arguments. Every operation of the reference is either pointwise, a broadcast that reads its operand at an index
  computed from the result's, a sum along the last axis, or a contraction of the second axes of both operands; the
  composed index functions are the coordinate pairs the specification uses.
-/
import proofs.«156539_j19327352832510_2_alg».proof.Proof.Gen.ReferenceIdeal.Read
import proofs.«156539_j19327352832510_2_alg».proof.Proof.RbfSpec

noncomputable section

open scoped BigOperators

namespace Cert.Rbf.Reference

open Cert.ReferenceIdeal Cert.ReferenceIdeal.Read Idealize.ShloMosaic Idealize.ShloMosaic.ValueIdx

/-- The activations' operand index of the projection: row of the output, contraction coordinate. -/
theorem lidx23 (n : Fin 65536) (o : Fin 64) (k : Fin 1024) : lidx_main_v23 (ix2 n o) k = ix2 n k :=
  funext fun a => Fin.ext (by match a with | ⟨0, _⟩ => rfl | ⟨1, _⟩ => rfl)

/-- W's operand index of the projection: column of the output, contraction coordinate. -/
theorem ridx23 (n : Fin 65536) (o : Fin 64) (k : Fin 1024) : ridx_main_v23 (ix2 n o) k = ix2 o k :=
  funext fun a => Fin.ext (by match a with | ⟨0, _⟩ => rfl | ⟨1, _⟩ => rfl)

theorem lidx5 (n : Fin 65536) (c : Fin 1024) (d : Fin 256) : lidx_main_v5 (ix2 n c) d = ix2 n d :=
  funext fun a => Fin.ext (by match a with | ⟨0, _⟩ => rfl | ⟨1, _⟩ => rfl)

theorem ridx5 (n : Fin 65536) (c : Fin 1024) (d : Fin 256) : ridx_main_v5 (ix2 n c) d = ix2 c d :=
  funext fun a => Fin.ext (by match a with | ⟨0, _⟩ => rfl | ⟨1, _⟩ => rfl)

theorem idx1 (n : Fin 65536) (c : Fin 1024) (d : Fin 256) :
    idx_main_v1 (idx_main_v2 (idx_main_v8 (ix2 n c))) d = ix2 n d :=
  funext fun a => Fin.ext (by match a with | ⟨0, _⟩ => rfl | ⟨1, _⟩ => rfl)

theorem idx4 (n : Fin 65536) (c : Fin 1024) (d : Fin 256) :
    idx_main_v4 (idx_main_v10 (idx_main_v11 (ix2 n c))) d = ix2 c d :=
  funext fun a => Fin.ext (by match a with | ⟨0, _⟩ => rfl | ⟨1, _⟩ => rfl)

theorem idx19 (n : Fin 65536) (c : Fin 1024) : idx_main_v19 (idx_main_v20 (ix2 n c)) = ix1 c :=
  funext fun a => Fin.ext (by match a with | ⟨0, _⟩ => rfl)

theorem idx24 (n : Fin 65536) (o : Fin 64) : idx_main_v24 (idx_main_v25 (ix2 n o)) = ix1 o :=
  funext fun a => Fin.ext (by match a with | ⟨0, _⟩ => rfl)

/-- The reference's activation at (n, c) is the specification's. -/
theorem activation (x0 : (⟨S65536x256, .f32⟩ : BufTy).Contents (Elt Ideal)) (x1 : (⟨S1024x256, .f32⟩ : BufTy).Contents (Elt Ideal))
    (x2 : (⟨S1024, .f32⟩ : BufTy).Contents (Elt Ideal)) (n : Fin 65536) (c : Fin 1024) :
    val_main_v22 (F := Ideal) x0 x1 x2 (ix2 n c) = Cert.Rbf.rbf x0 x1 x2 n c := by
  rw [val_main_v22_apply, val_main_v21_apply, val_main_v13_apply, val_main_v12_apply, val_main_v9_apply,
    val_main_v8_apply, val_main_v2_apply, val_main_v1_apply, val_main_v7_apply, val_main_v6_apply,
    val_main_v5_apply, val_main_v11_apply, val_main_v10_apply, val_main_v4_apply, val_main_v20_apply,
    val_main_v19_apply, val_main_v18_apply, val_main_v16_apply, val_main_v15_apply, val_main_v14_apply,
    val_main_v17_apply]
  simp only [val_main_v0_apply, val_main_v3_apply, val_main_cst_apply, val_main_cst_0_apply, val_main_cst_1_apply,
    val_main_cst_2_apply, val_main_cst_3_apply, lidx5, ridx5, idx1, idx4, idx19,
    Ideal.mulf_def, Ideal.addf_def, Ideal.subf_def, Ideal.hostDivf_def, Ideal.hostNegf_def, Ideal.negf_def,
    Ideal.hostUnary_exp_def, Ideal.ofBits_def]
  rfl

/-- THE REFERENCE IS THE SPECIFICATION. -/
theorem result_eq (x0 : (⟨S65536x256, .f32⟩ : BufTy).Contents (Elt Ideal)) (x1 : (⟨S1024x256, .f32⟩ : BufTy).Contents (Elt Ideal))
    (x2 : (⟨S1024, .f32⟩ : BufTy).Contents (Elt Ideal)) (x3 : (⟨S64x1024, .f32⟩ : BufTy).Contents (Elt Ideal))
    (x4 : (⟨S64, .f32⟩ : BufTy).Contents (Elt Ideal)) :
    val_main_v26 (F := Ideal) x0 x1 x2 x3 x4 = Cert.Rbf.out x0 x1 x2 x3 x4 := by
  funext i
  obtain ⟨n, o, rfl⟩ : ∃ (n : Fin 65536) (o : Fin 64), i = ix2 n o := ⟨i 0, i 1, eq_ix2 i⟩
  rw [val_main_v26_apply, val_main_v23_apply, val_main_v25_apply, val_main_v24_apply, idx24]
  simp only [lidx23, ridx23, activation, Ideal.addf_def]
  rfl

end Cert.Rbf.Reference

end
-- ==== Proof.LibPlainDot.lean ====
/-
  A plain matrix product's contraction sum, for any sizes.  For dimension numbers that contract the left operand's
  second axis with the right operand's first, keep the left operand's first axis and the right operand's second, and
  have no batch axes, the sum over the contraction index of the operands' products at output index (p, q) is
  the sum over k of L (p, k) * R (k, q).  With it, a matmul into the zero accumulator and a host dot_general, read at
  (p, q) on the extended reals, are that sum.
-/
import Idealize.ShloMosaic.PureOps.Ideal.Laws
import Idealize.ShloMosaic.Lib.ValueIdx

noncomputable section

open scoped BigOperators

namespace Cert.Bridge

open Idealize.ShloMosaic Idealize.ShloMosaic.ValueIdx

/-- The contraction shape of plain dimension numbers has one axis, of extent K; the operand indices at output index
    (p, q) and the contraction index whose one coordinate is k are (p, k) and (k, q). -/
theorem plain_idx {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) :
    ∃ (hr : d.contr.rank = 1) (hs : d.contr.size ⟨0, by omega⟩ = K), ∀ (p : Fin A) (q : Fin B) (k : Fin K),
      d.lhsIdx (ix2 p q) ((contrEquiv1 d K hr hs).symm k) = ix2 p k ∧
      d.rhsIdx (ix2 p q) ((contrEquiv1 d K hr hs).symm k) = ix2 k q := by
  obtain ⟨lc, rc, ln, rn, lb, rb, wf⟩ := d
  simp only at hlc hrc hln hrn hlb hrb
  subst hlc hrc hln hrn hlb hrb
  refine ⟨rfl, rfl, fun p q k => ⟨?_, ?_⟩⟩
  · funext a
    match a with
    | ⟨0, _⟩ => exact Fin.ext rfl
    | ⟨1, _⟩ => exact Fin.ext rfl
  · funext a
    match a with
    | ⟨0, _⟩ => exact Fin.ext rfl
    | ⟨1, _⟩ => exact Fin.ext rfl

/-- THE CONTRACTION SUM of a plain product at (p, q): the sum over k of L (p, k) * R (k, q). -/
theorem plain_sum {A K B : Nat} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (L : (⟨2, ![A, K]⟩ : Shape).Idx → EReal) (R : (⟨2, ![K, B]⟩ : Shape).Idx → EReal) (p : Fin A) (q : Fin B) :
    ∑ κ : d.contr.Idx, L (d.lhsIdx (ix2 p q) κ) * R (d.rhsIdx (ix2 p q) κ) = ∑ k : Fin K, L (ix2 p k) * R (ix2 k q) := by
  obtain ⟨hr, hs, h⟩ := plain_idx d hlc hrc hln hrn hlb hrb
  rw [← Equiv.sum_comp (contrEquiv1 d K hr hs).symm]
  exact Finset.sum_congr rfl fun k _ => by rw [(h p q k).1, (h p q k).2]

/-- A matmul of plain dimension numbers into the zero accumulator, read at (p, q) on the extended reals. -/
theorem matmul_zero_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q)
      = ∑ k : Fin K, lhs (ix2 p k) * rhs (ix2 k q) :=
  (Ideal.matmul_constant_zero_apply d prec lhs rhs (ix2 p q)).trans (plain_sum d hlc hrc hln hrn hlb hrb lhs rhs p q)

/-- A host dot_general of plain dimension numbers, read at (p, q) on the extended reals. -/
theorem dotGeneral_plain {A K B : Nat} {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ φ₁)
    (rhs : FVec Ideal ⟨2, ![K, B]⟩ φ₂) (p : Fin A) (q : Fin B) :
    FloatOps.dotGeneral d prec sched lhs rhs (ix2 p q) = ∑ k : Fin K, lhs (ix2 p k) * rhs (ix2 k q) :=
  (Ideal.dotGeneral_apply d prec sched lhs rhs (ix2 p q)).trans (plain_sum d hlc hrc hln hrn hlb hrb lhs rhs p q)

end Cert.Bridge

end
-- ==== Proof.LibLastAxis.lean ====
/-
  Reductions along the LAST axis, on the extended reals, for any sizes and ranks 2, 3 and 4.

  * Over a result index, the source index with coordinate k on the reduced (last) axis appends k.
  * The host's sum from an initial value is that value plus the finite sum along the axis; a kernel's lane sum from the
    zero word is the finite sum.
  * The host's maximum and a kernel's lane maximum are the fold of max, from the initial value, along the axis; from
    minus infinity, one more `max` with minus infinity changes nothing.
-/
import Idealize.ShloMosaic.Lib.ValueIdx
import Idealize.ShloMosaic.Lib.Pipeline.Value
import Idealize.ShloMosaic.PureOps.Ideal.Laws

noncomputable section

open scoped BigOperators

namespace Cert.Lib.LastAxis

open Idealize.ShloMosaic Idealize.ShloMosaic.ValueIdx

/-! ## The source index over a result index -/

theorem lift_last2 {a b : ℕ} (h : (⟨2, ![a, b]⟩ : Shape).Reduces [(1 : Fin 2)] ⟨1, ![a]⟩) (p : Fin a)
    (k : Fin ((⟨2, ![a, b]⟩ : Shape).size 1)) : h.lift (ix1 p) k = ix2 p (k : Fin b) := by
  funext c; apply Fin.ext; rw [h.lift_val]
  match c with
  | ⟨0, _⟩ => rfl
  | ⟨1, _⟩ => rfl

theorem lift_last3 {a b c : ℕ} (h : (⟨3, ![a, b, c]⟩ : Shape).Reduces [(2 : Fin 3)] ⟨2, ![a, b]⟩) (p : Fin a) (q : Fin b)
    (k : Fin ((⟨3, ![a, b, c]⟩ : Shape).size 2)) : h.lift (ix2 p q) k = ix3 p q (k : Fin c) := by
  funext x; apply Fin.ext; rw [h.lift_val]
  match x with
  | ⟨0, _⟩ => rfl
  | ⟨1, _⟩ => rfl
  | ⟨2, _⟩ => rfl

theorem lift_last4 {a b c d : ℕ} (h : (⟨4, ![a, b, c, d]⟩ : Shape).Reduces [(3 : Fin 4)] ⟨3, ![a, b, c]⟩) (p : Fin a) (q : Fin b)
    (r : Fin c) (k : Fin ((⟨4, ![a, b, c, d]⟩ : Shape).size 3)) : h.lift (ix3 p q r) k = ix4 p q r (k : Fin d) := by
  funext x; apply Fin.ext; rw [h.lift_val]
  match x with
  | ⟨0, _⟩ => rfl
  | ⟨1, _⟩ => rfl
  | ⟨2, _⟩ => rfl
  | ⟨3, _⟩ => rfl

/-! ## Sums -/

/-- The host's sum of a rank-3 array along its last axis, at (p, q). -/
theorem hostSum_last3 {a b c : ℕ} {φ : FTy} (x : FVec Ideal ⟨3, ![a, b, c]⟩ φ) (v : (⟨0, ![]⟩ : Shape).Idx → Ideal φ)
    (h' : (⟨3, ![a, b, c]⟩ : Shape).ReducesTo [(2 : Fin 3)] ⟨2, ![a, b]⟩)
    (h : (⟨3, ![a, b, c]⟩ : Shape).Reduces [(2 : Fin 3)] ⟨2, ![a, b]⟩) (hu : 0 < (⟨0, ![]⟩ : Shape).numel) (p : Fin a) (q : Fin b) :
    Host.reduceAdd x v h' hu (ix2 p q) = v ix0 + ∑ k : Fin c, x (ix3 p q k) := by
  show Ideal.hostReduceAdd h' x (v (Shape.Idx.first hu)) (ix2 p q) = _
  rw [Ideal.hostReduceAdd_single h' h, eq_ix0 (Shape.Idx.first hu)]
  exact congrArg (v ix0 + ·) (Finset.sum_congr rfl fun k _ => congrArg x (lift_last3 h p q k))

/-- The host's sum of a rank-4 array along its last axis, at (p, q, r). -/
theorem hostSum_last4 {a b c d : ℕ} {φ : FTy} (x : FVec Ideal ⟨4, ![a, b, c, d]⟩ φ) (v : (⟨0, ![]⟩ : Shape).Idx → Ideal φ)
    (h' : (⟨4, ![a, b, c, d]⟩ : Shape).ReducesTo [(3 : Fin 4)] ⟨3, ![a, b, c]⟩)
    (h : (⟨4, ![a, b, c, d]⟩ : Shape).Reduces [(3 : Fin 4)] ⟨3, ![a, b, c]⟩) (hu : 0 < (⟨0, ![]⟩ : Shape).numel)
    (p : Fin a) (q : Fin b) (r : Fin c) :
    Host.reduceAdd x v h' hu (ix3 p q r) = v ix0 + ∑ k : Fin d, x (ix4 p q r k) := by
  show Ideal.hostReduceAdd h' x (v (Shape.Idx.first hu)) (ix3 p q r) = _
  rw [Ideal.hostReduceAdd_single h' h, eq_ix0 (Shape.Idx.first hu)]
  exact congrArg (v ix0 + ·) (Finset.sum_congr rfl fun k _ => congrArg x (lift_last4 h p q r k))

/-- A kernel's lane sum of a matrix along its last axis from the neutral word, at row p. -/
theorem laneSum_last2 {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-! ## Maxima -/

/-- Minus infinity is neutral for `max` on the extended reals. -/
theorem max_bot_left (y : EReal) : max (⊥ : EReal) y = y := max_eq_right bot_le

/-- The host's maximum of a rank-4 array along its last axis, at (p, q, r): the fold of max from the initial value. -/
theorem hostMax_last4 {a b c d : ℕ} {φ : FTy} (x : FVec Ideal ⟨4, ![a, b, c, d]⟩ φ) (v : (⟨0, ![]⟩ : Shape).Idx → Ideal φ)
    (h' : (⟨4, ![a, b, c, d]⟩ : Shape).ReducesTo [(3 : Fin 4)] ⟨3, ![a, b, c]⟩)
    (h : (⟨4, ![a, b, c, d]⟩ : Shape).Reduces [(3 : Fin 4)] ⟨3, ![a, b, c]⟩) (hu : 0 < (⟨0, ![]⟩ : Shape).numel)
    (p : Fin a) (q : Fin b) (r : Fin c) :
    Host.reduce (FloatOps.maximumf (F := Ideal) (φ := φ)) x v h' hu (ix3 p q r)
      = (Finset.univ : Finset (Fin d)).fold max (v ix0) (fun k => x (ix4 p q r k)) := by
  rw [Host.reduce_eq_fold_single (FloatOps.maximumf (F := Ideal) (φ := φ)) x v h' h hu, eq_ix0 (Shape.Idx.first hu)]
  exact congrArg (fun f => Finset.fold max (v ix0) f (Finset.univ : Finset (Fin d))) (funext fun k => congrArg x (lift_last4 h p q r k))

/-- A kernel's lane maximum of a matrix along its last axis, at row p: the fold of max from the accumulator word's value. -/
theorem laneMax_last2 {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits φ acc) (fun k => src (ix2 p k)) :=
  (Ideal.multiReduction_maximumf_single src acc h hφ hacc (ix1 p)).trans
    (congrArg (fun f => Finset.fold max (FloatOps.ofBits φ acc) f (Finset.univ : Finset (Fin b))) (funext fun k => congrArg src (lift_last2 h p k)))

end Cert.Lib.LastAxis

end
-- ==== Proof.LibKeepdimsColumn.lean ====
/-
  The "keepdims" column forms of a row statistic, read at an index, for any sizes: a vector `[a]` cast to a column `[a,1]`
  and back, a column `[a,1]` broadcast along the rows to `[a,b]`, and the composite a kernel writes after a row reduction —
  the statistic cast to a column and broadcast back over its row: entry (p, q) is the statistic of row p.
-/
import Idealize.ShloMosaic.Lib.ValueIdx
import Idealize.ShloMosaic.Lib.Pipeline.Value

namespace Cert.Lib.KeepdimsColumn

open Idealize.ShloMosaic Idealize.ShloMosaic.ValueIdx

variable {α : Type}

/-- A vector as a column: entry (p, 0) is the vector's entry p. -/
theorem vecToCol_apply {a : Nat} (v : (⟨1, ![a]⟩ : Shape).Idx → α) (h : (⟨1, ![a]⟩ : Shape).ShapeCasts ⟨2, ![a, 1]⟩)
    (p : Fin a) (z : Fin 1) : shapeCast (⟨2, ![a, 1]⟩ : Shape) v h (ix2 p z) = v (ix1 p) := by
  refine shapeCast_apply v h (ix2 p z) (ix1 p) ?_
  rw [Shape.rowMajor_val_one, Shape.rowMajor_val_two]
  show p.val = p.val * 1 + z.val
  have := z.isLt; omega

/-- A column as a vector: entry p is the column's entry (p, 0). -/
theorem colToVec_apply {a : Nat} (v : (⟨2, ![a, 1]⟩ : Shape).Idx → α) (h : (⟨2, ![a, 1]⟩ : Shape).ShapeCasts ⟨1, ![a]⟩)
    (p : Fin a) : shapeCast (⟨1, ![a]⟩ : Shape) v h (ix1 p) = v (ix2 p (0 : Fin 1)) := by
  refine shapeCast_apply v h (ix1 p) (ix2 p (0 : Fin 1)) ?_
  rw [Shape.rowMajor_val_one, Shape.rowMajor_val_two]
  show p.val * 1 + 0 = p.val
  omega

/-- A column broadcast along the rows: entry (p, q) is the column's entry (p, 0). -/
theorem colToMat_apply {a b : Nat} (v : (⟨2, ![a, 1]⟩ : Shape).Idx → α) (h : (⟨2, ![a, 1]⟩ : Shape).Broadcasts ⟨2, ![a, b]⟩)
    (p : Fin a) (q : Fin b) : broadcastTo (⟨2, ![a, b]⟩ : Shape) v h (ix2 p q) = v (ix2 p (0 : Fin 1)) := by
  refine broadcastTo_apply v h (ix2 p q) (ix2 p (0 : Fin 1)) fun ax => ?_
  match ax with
  | ⟨0, _⟩ =>
    show p.val = if a = 1 then 0 else p.val
    by_cases ha : a = 1
    · rw [if_pos ha]; have := p.isLt; omega
    · rw [if_neg ha]
  | ⟨1, _⟩ => show 0 = if (1 : Nat) = 1 then 0 else q.val; rw [if_pos rfl]

/-- A row statistic put back on its row: entry (p, q) is the statistic of row p. -/
theorem statToMat_apply {a b : Nat} (v : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (q : Fin b) :
    broadcastTo (⟨2, ![a, b]⟩ : Shape) (shapeCast (⟨2, ![a, 1]⟩ : Shape) v hc) hb (ix2 p q) = v (ix1 p) :=
  (colToMat_apply _ hb p q).trans (vecToCol_apply v hc p 0)

end Cert.Lib.KeepdimsColumn
-- ==== Proof.LibRank2Layout.lean ====
/-
  Rank-2 layout operations read at an index given by its two coordinates.

  A column slice `x[:, c:c+1]` of an [a, n] array read at (p, 0) is x at (p, c); a row slice `x[c:c+1, :]` of an
  [n, b] array read at (0, q) is x at (c, q); a column [a, 1] broadcast along lanes to [a, b] reads, at (p, q), the
  column at (p, 0); a row [1, b] broadcast along sublanes to [a, b] reads, at (p, q), the row at (0, q).  Each is one
  instance of the library's read-at-an-index lemma for the operation, with the coordinate arithmetic discharged once
  for all sizes.  Last, two shape casts of one array read at indices with equal row-major positions are equal.
-/
import Idealize.ShloMosaic.Lib.ValueIdx
import Idealize.ShloMosaic.Lib.Pipeline.Value

namespace Idealize.ShloMosaic.Rank2

open Idealize.ShloMosaic Idealize.ShloMosaic.ValueIdx

variable {α : Type}

/-- A one-column slice at column offset `c` fits only if `c` is a column of the array. -/
theorem col_lt {a n c : Nat} (h : (⟨2, ![a, n]⟩ : Shape).Slices ![0, c] ⟨2, ![a, 1]⟩) : c < n := by
  have h1 := h.2 (1 : Fin 2)
  change c + 1 ≤ n at h1
  omega

/-- A one-row slice at row offset `c` fits only if `c` is a row of the array. -/
theorem row_lt {n b c : Nat} (h : (⟨2, ![n, b]⟩ : Shape).Slices ![c, 0] ⟨2, ![1, b]⟩) : c < n := by
  have h0 := h.2 (0 : Fin 2)
  change c + 1 ≤ n at h0
  omega

/-- The column slice `x[:, c:c+1]` at (p, 0) is `x` at (p, c). -/
theorem sliceCol_apply {a n c : Nat} (x : (⟨2, ![a, n]⟩ : Shape).Idx → α)
    (h : (⟨2, ![a, n]⟩ : Shape).Slices ![0, c] ⟨2, ![a, 1]⟩) (p : Fin a) (z : Fin 1) :
    extractStridedSlice (⟨2, ![a, 1]⟩ : Shape) ![0, c] x h (ix2 p z) = x (ix2 p (⟨c, col_lt h⟩ : Fin n)) :=
  extractStridedSlice_apply ![0, c] x h (ix2 p z) (ix2 p (⟨c, col_lt h⟩ : Fin n)) (fun d => match d with
    | ⟨0, _⟩ => by show p.val = 0 + p.val; omega
    | ⟨1, _⟩ => by show c = c + z.val; have := z.isLt; omega)

/-- The row slice `x[c:c+1, :]` at (0, q) is `x` at (c, q). -/
theorem sliceRow_apply {n b c : Nat} (x : (⟨2, ![n, b]⟩ : Shape).Idx → α)
    (h : (⟨2, ![n, b]⟩ : Shape).Slices ![c, 0] ⟨2, ![1, b]⟩) (z : Fin 1) (q : Fin b) :
    extractStridedSlice (⟨2, ![1, b]⟩ : Shape) ![c, 0] x h (ix2 z q) = x (ix2 (⟨c, row_lt h⟩ : Fin n) q) :=
  extractStridedSlice_apply ![c, 0] x h (ix2 z q) (ix2 (⟨c, row_lt h⟩ : Fin n) q) (fun d => match d with
    | ⟨0, _⟩ => by show c = c + z.val; have := z.isLt; omega
    | ⟨1, _⟩ => by show q.val = 0 + q.val; omega)

/-- A column broadcast along the second axis: entry (p, q) is the column's entry (p, 0). -/
theorem bcastCol_apply {a b : Nat} (v : (⟨2, ![a, 1]⟩ : Shape).Idx → α)
    (h : (⟨2, ![a, 1]⟩ : Shape).Broadcasts ⟨2, ![a, b]⟩) (p : Fin a) (q : Fin b) :
    broadcastTo (⟨2, ![a, b]⟩ : Shape) v h (ix2 p q) = v (ix2 p (0 : Fin 1)) :=
  broadcastTo_apply v h (ix2 p q) (ix2 p (0 : Fin 1)) (fun d => match d with
    | ⟨0, _⟩ => by
        show p.val = if a = 1 then 0 else p.val
        by_cases ha : a = 1
        · rw [if_pos ha]; have := p.isLt; omega
        · rw [if_neg ha]
    | ⟨1, _⟩ => by show 0 = if (1 : Nat) = 1 then 0 else q.val; rw [if_pos rfl])

/-- A row broadcast along the first axis: entry (p, q) is the row's entry (0, q). -/
theorem bcastRow_apply {a b : Nat} (v : (⟨2, ![1, b]⟩ : Shape).Idx → α)
    (h : (⟨2, ![1, b]⟩ : Shape).Broadcasts ⟨2, ![a, b]⟩) (p : Fin a) (q : Fin b) :
    broadcastTo (⟨2, ![a, b]⟩ : Shape) v h (ix2 p q) = v (ix2 (0 : Fin 1) q) :=
  broadcastTo_apply v h (ix2 p q) (ix2 (0 : Fin 1) q) (fun d => match d with
    | ⟨0, _⟩ => by show 0 = if (1 : Nat) = 1 then 0 else p.val; rw [if_pos rfl]
    | ⟨1, _⟩ => by
        show q.val = if b = 1 then 0 else q.val
        by_cases hb : b = 1
        · rw [if_pos hb]; have := q.isLt; omega
        · rw [if_neg hb])

end Idealize.ShloMosaic.Rank2

namespace Idealize.ShloMosaic

/-- Two shape casts of one array agree at indices with the same row-major position. -/
theorem shapeCast_eq_shapeCast {α : Type} {s t u : Shape} (x : s.Idx → α) (h : s.ShapeCasts t) (h' : s.ShapeCasts u)
    (j : t.Idx) (k : u.Idx) (e : (t.rowMajor j).val = (u.rowMajor k).val) :
    shapeCast t x h j = shapeCast u x h' k := by
  unfold shapeCast
  exact congrArg x (Shape.reshapeEquiv_eq_of_rowMajor h ((Shape.rowMajor_reshapeEquiv h' k).trans e.symm))

end Idealize.ShloMosaic
-- ==== Proof.RbfBody.lean ====
/-
  The kernel body's arithmetic, read at one entry of its output block, on the extended reals.

  The body holds a block of 2048 rows of x, the whole matrix A = -2·centresᵀ (256 × 1024), the row of squared centre
  norms, the row of negated reciprocal widths, the whole matrix Wᵀ (1024 × 64) and the bias row. Entry (p, q) of what it
  stores is
      Σ_c exp( ((Σ_d x[p,d]² + Σ_d x[p,d]·A[d,c]) + csq[0,c]) · nid[0,c] ) · Wᵀ[c,q]  +  b[0,q]:
  a lane sum put back on its row, two matrix products into zero accumulators (plain sums on the extended reals), three
  rows broadcast down the block, and pointwise operations; the format changes around the products are the identity.
-/
import proofs.«156539_j19327352832510_2_alg».proof.Proof.Gen.KernelIdeal.Skeleton
import proofs.«156539_j19327352832510_2_alg».proof.Proof.LibPlainDot
import proofs.«156539_j19327352832510_2_alg».proof.Proof.LibLastAxis
import proofs.«156539_j19327352832510_2_alg».proof.Proof.LibKeepdimsColumn
import proofs.«156539_j19327352832510_2_alg».proof.Proof.LibRank2Layout
import Idealize.ShloMosaic.Lib.Pipeline.Value
import Idealize.ShloMosaic.Lib.ValueIdx

noncomputable section

open scoped BigOperators

namespace Cert.Rbf.Body

open Cert.KernelIdeal Cert.KernelIdeal.Gen Idealize.ShloMosaic Idealize.ShloMosaic.ValueIdx

/-- A row held as a [1, b] block, passed through the identity cast and broadcast down a rows, at (p, q): the row's
    entry q. -/
theorem row_apply {a b : Nat} (v : (⟨2, ![1, b]⟩ : Shape).Idx → EReal) (hc : (⟨2, ![1, b]⟩ : Shape).ShapeCasts ⟨2, ![1, b]⟩)
    (hb : (⟨2, ![1, b]⟩ : Shape).Broadcasts ⟨2, ![a, b]⟩) (p : Fin a) (q : Fin b) :
    broadcastTo (⟨2, ![a, b]⟩ : Shape) (shapeCast (⟨2, ![1, b]⟩ : Shape) v hc) hb (ix2 p q) = v (ix2 (0 : Fin 1) q) :=
  (Rank2.bcastRow_apply _ hb p q).trans (congrFun (shapeCast_self v hc) _)

/-- THE BODY'S STORED VALUE at entry (p, q) of the output block. -/
theorem payload_apply (x0 : FVec Ideal S2048x256 .f32) (x1 : FVec Ideal S256x1024 .bf16) (x2 x3 : FVec Ideal S1x1024 .f32)
    (x4 : FVec Ideal S1024x64 .bf16) (x5 : FVec Ideal S1x64 .f32) (p : Fin 2048) (q : Fin 64) :
    k0_pay1 (F := Ideal) x0 x1 x2 x3 x4 x5 (ix2 p q)
      = (∑ c : Fin 1024, Ideal.exp ((((∑ d : Fin 256, x0 (ix2 p d) * x0 (ix2 p d))
              + ∑ d : Fin 256, x0 (ix2 p d) * x1 (ix2 d c)) + x2 (ix2 (0 : Fin 1) c)) * x3 (ix2 (0 : Fin 1) c))
            * x4 (ix2 c q))
          + x5 (ix2 (0 : Fin 1) q) := by
  unfold k0_pay1
  show _ + _ = _ + _
  refine congrArg₂ (· + ·) ?_ (row_apply x5 _ _ p q)
  refine (Cert.Bridge.matmul_zero_plain _ rfl rfl rfl rfl rfl rfl none _ _ p q).trans (Finset.sum_congr rfl fun c _ => ?_)
  refine congrArg₂ (· * ·) ?_ (congrFun (shapeCast_self x4 _) _)
  show Ideal.exp (_ * _) = Ideal.exp (_ * _)
  refine congrArg Ideal.exp (congrArg₂ (· * ·) ?_ (row_apply x3 _ _ p c))
  show (_ + _) + _ = (_ + _) + _
  refine congrArg₂ (· + ·) (congrArg₂ (· + ·) ?_ ?_) (row_apply x2 _ _ p c)
  · exact (Cert.Lib.KeepdimsColumn.statToMat_apply _ _ _ p c).trans
      (Cert.Lib.LastAxis.laneSum_last2 (mulf x0 x0) 0x00000000#32 _ (.inl rfl) rfl p)
  · refine (Cert.Bridge.matmul_zero_plain _ rfl rfl rfl rfl rfl rfl none _ _ p c).trans (Finset.sum_congr rfl fun d _ => ?_)
    exact congrArg₂ (· * ·) rfl (congrFun (shapeCast_self x1 _) _)

end Cert.Rbf.Body

end
-- ==== Proof.LibHostMatrix.lean ====
/-
  Host-side readings of vectors and matrices at an index, for any sizes: a vector reshaped to a one-row matrix, a
  matrix transposed, a scalar constant broadcast to any shape, and — on the extended reals — the host's sum of a
  matrix along its last axis as the initial value plus the finite sum of the row.
-/
import Idealize.ShloMosaic.Lib.ValueIdx
import Idealize.ShloMosaic.Lib.Pipeline.Value
import Idealize.ShloMosaic.PureOps.Ideal.Laws

noncomputable section

open scoped BigOperators

namespace Cert.Lib.HostMatrix

open Idealize.ShloMosaic Idealize.ShloMosaic.ValueIdx

/-- A vector reshaped to a one-row matrix: entry (0, q) is the vector's entry q. -/
theorem rowOfVec_apply {α : Type} {b : Nat} (v : (⟨1, ![b]⟩ : Shape).Idx → α)
    (h : (⟨1, ![b]⟩ : Shape).ShapeCasts ⟨2, ![1, b]⟩) (z : Fin 1) (q : Fin b) :
    shapeCast (⟨2, ![1, b]⟩ : Shape) v h (ix2 z q) = v (ix1 q) := by
  refine shapeCast_apply v h (ix2 z q) (ix1 q) ?_
  rw [Shape.rowMajor_val_one, Shape.rowMajor_val_two]
  show q.val = z.val * b + q.val
  have hz : z.val = 0 := by have := z.isLt; omega
  rw [hz, Nat.zero_mul, Nat.zero_add]

/-- A matrix transposed: entry (p, q) of the transpose is entry (q, p). -/
theorem transposed_apply {α : Type} {a b : Nat} (x : (⟨2, ![a, b]⟩ : Shape).Idx → α)
    (h : (⟨2, ![a, b]⟩ : Shape).Transposes [(1 : Fin 2), 0] ⟨2, ![b, a]⟩) (p : Fin b) (q : Fin a) :
    transpose (⟨2, ![b, a]⟩ : Shape) [(1 : Fin 2), 0] x h (ix2 p q) = x (ix2 q p) :=
  transpose_apply [(1 : Fin 2), 0] x h (ix2 p q) (ix2 q p) (fun d => match d with
    | ⟨0, _⟩ => rfl
    | ⟨1, _⟩ => rfl)

/-- A scalar constant broadcast to any shape: every entry is the constant's value. -/
theorem splat_apply {s : Shape} (h : (⟨0, ![]⟩ : Shape).BroadcastsInDim s (![] : Fin 0 → Fin s.rank)) (w : BitVec 32)
    (j : s.Idx) : broadcastInDim s ![] h (constant (F := Ideal) ⟨0, ![]⟩ .f32 w) j = Ideal.ofBits .f32 w :=
  broadcastInDim_apply _ h _ j ix0 (fun a => a.elim0)

/-- Over a row index p, the source index of a reduction along the last axis with coordinate k appends k. -/
theorem lift_lastAxis {a b : ℕ} (h : (⟨2, ![a, b]⟩ : Shape).Reduces [(1 : Fin 2)] ⟨1, ![a]⟩) (p : Fin a)
    (k : Fin ((⟨2, ![a, b]⟩ : Shape).size 1)) : h.lift (ix1 p) k = ix2 p (k : Fin b) := by
  funext c; apply Fin.ext; rw [h.lift_val]
  match c with
  | ⟨0, _⟩ => rfl
  | ⟨1, _⟩ => rfl

/-- The host's sum of a matrix along its last axis, at row p: the initial value plus the finite sum of the row. -/
theorem hostSum_last2 {a b : ℕ} {φ : FTy} (x : FVec Ideal ⟨2, ![a, b]⟩ φ) (v : (⟨0, ![]⟩ : Shape).Idx → Ideal φ)
    (h' : (⟨2, ![a, b]⟩ : Shape).ReducesTo [(1 : Fin 2)] ⟨1, ![a]⟩)
    (h : (⟨2, ![a, b]⟩ : Shape).Reduces [(1 : Fin 2)] ⟨1, ![a]⟩) (hu : 0 < (⟨0, ![]⟩ : Shape).numel) (p : Fin a) :
    Host.reduceAdd x v h' hu (ix1 p) = v ix0 + ∑ k : Fin b, x (ix2 p k) := by
  show Ideal.hostReduceAdd h' x (v (Shape.Idx.first hu)) (ix1 p) = _
  rw [Ideal.hostReduceAdd_single h' h, eq_ix0 (Shape.Idx.first hu)]
  exact congrArg (v ix0 + ·) (Finset.sum_congr rfl fun k _ => congrArg x (lift_lastAxis h p k))

end Cert.Lib.HostMatrix

end
-- ==== Proof.RbfHostPrefix.lean ====
/-
  What the kernel's program computes on the host BEFORE the region, read at an index on the extended reals: the five
  arrays the region stages beside x.

    A   = bf16(-2 · centresᵀ)        A[d, c]  = (-2) · centres[c, d]
    csq = row of Σ_d centres[c, d]²   csq[0, c] = 0 + Σ_d centres[c, d]²
    nid = row of (-1)/(2σ² + ε)       nid[0, c] = (-1) / (2 · (σ_c · σ_c) + ε)
    Wᵀ  = bf16(Wᵀ)                    Wᵀ[c, o] = W[o, c]
    b   = the bias as a row           b[0, o]  = b[o]

  Transposes and reshapes re-lay entries, the scalar constants are splats, the change of format is the identity, and
  the host's sum along the last axis is the initial value plus the finite sum.
-/
import proofs.«156539_j19327352832510_2_alg».proof.Proof.Gen.KernelIdeal.Frame
import proofs.«156539_j19327352832510_2_alg».proof.Proof.LibHostMatrix
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.Rbf.HostPrefix

open Cert.KernelIdeal Cert.KernelIdeal.Gen Idealize.ShloMosaic Idealize.ShloMosaic.TcCoe Idealize.ShloMosaic.ValueIdx
  Idealize.SL.Sem Cert.Lib.HostMatrix

/-! ## The five staged arrays -/

variable (m : (ℓ : Loc nD τ sig) → Buf (Elt Ideal) ℓ) (c : Dev nD)

/-- The argument arrays as launched. -/
def argX : FVec Ideal S65536x256 .f32 := m ((c : Thread nD τ).loc main_arg0)
def argCentres : FVec Ideal S1024x256 .f32 := m ((c : Thread nD τ).loc main_arg1)
def argSigma : FVec Ideal S1024 .f32 := m ((c : Thread nD τ).loc main_arg2)
def argW : FVec Ideal S64x1024 .f32 := m ((c : Thread nD τ).loc main_arg3)
def argB : FVec Ideal S64 .f32 := m ((c : Thread nD τ).loc main_arg4)

/-- The arrays the region stages, as it finds them. -/
def stagedX : FVec Ideal S65536x256 .f32 := V m c main_arg0
def stagedA : FVec Ideal S256x1024 .bf16 := V m c main_v3
def stagedNorms : FVec Ideal S1x1024 .f32 := V m c main_v6
def stagedRecip : FVec Ideal S1x1024 .f32 := V m c main_v14
def stagedWT : FVec Ideal S1024x64 .bf16 := V m c main_v16
def stagedBias : FVec Ideal S1x64 .f32 := V m c main_v17

/-- x is staged as launched. -/
theorem stagedX_eq : stagedX m c = argX m c := by
  unfold stagedX argX; exact V_main_arg0 m c

/-- A = -2 · centresᵀ, entry (d, k). -/
theorem scaledCentresT_apply (d : Fin 256) (k : Fin 1024) :
    stagedA m c (ix2 d k) = Ideal.ofBits .f32 0xC0000000#32 * argCentres m c (ix2 k d) := by
  have e : stagedA m c
      = truncf .bf16 (mulf (broadcastInDim S256x1024 ![] bcast_S_S256x1024 (constant (F := Ideal) S_ .f32 0xC0000000#32))
          (transpose S256x1024 [1, 0] (argCentres m c) transposes_S1024x256_S256x1024_1_0))
          bitsLt_bf16_f32 := by
    dsimp only [stagedA, argCentres, Gen.V, Gen.hostOps0]; after_results
  rw [e]
  refine (truncf_apply (ψ := .bf16) _ bitsLt_bf16_f32 _).trans ((mulf_apply _ _ _).trans ?_)
  exact congrArg₂ (· * ·) (splat_apply bcast_S_S256x1024 _ _) (transposed_apply _ _ d k)

/-- The squared centre norms as a row, entry (0, k). -/
theorem centreNorms_apply (k : Fin 1024) :
    stagedNorms m c (ix2 (0 : Fin 1) k)
      = Ideal.ofBits .f32 0x00000000#32 + ∑ d : Fin 256, argCentres m c (ix2 k d) * argCentres m c (ix2 k d) := by
  have e : stagedNorms m c
      = shapeCast S1x1024 (Host.reduceAdd (F := Ideal) (mulf (argCentres m c) (argCentres m c))
          (constant (F := Ideal) S_ .f32 0x00000000#32) reducesTo_S1024x256_S1024_d1 h_S_) shapeCasts_S1024_S1x1024 := by
    dsimp only [stagedNorms, argCentres, Gen.V, Gen.hostOps0]; after_results; rfl
  rw [e]
  exact (rowOfVec_apply _ _ 0 k).trans (hostSum_last2 _ _ reducesTo_S1024x256_S1024_d1 (by decide) h_S_ k)

/-- The negated reciprocal widths as a row, entry (0, k). -/
theorem negRecipWidth_apply (k : Fin 1024) :
    stagedRecip m c (ix2 (0 : Fin 1) k)
      = Ideal.div (Ideal.ofBits .f32 0xBF800000#32)
          (Ideal.ofBits .f32 0x40000000#32 * (argSigma m c (ix1 k) * argSigma m c (ix1 k))
            + Ideal.ofBits .f32 0x322BCC77#32) := by
  have e : stagedRecip m c
      = shapeCast S1x1024 (Host.divf (F := Ideal)
          (broadcastInDim S1024 ![] bcast_S_S1024 (constant (F := Ideal) S_ .f32 0xBF800000#32))
          (addf (mulf (broadcastInDim S1024 ![] bcast_S_S1024 (constant (F := Ideal) S_ .f32 0x40000000#32))
              (mulf (argSigma m c) (argSigma m c)))
            (broadcastInDim S1024 ![] bcast_S_S1024 (constant (F := Ideal) S_ .f32 0x322BCC77#32))))
          shapeCasts_S1024_S1x1024 := by
    dsimp only [stagedRecip, argSigma, Gen.V, Gen.hostOps0]; after_results; rfl
  rw [e]
  refine (rowOfVec_apply _ _ 0 k).trans ?_
  refine congrArg₂ Ideal.div (splat_apply bcast_S_S1024 _ _) ?_
  refine (addf_apply _ _ _).trans (congrArg₂ (· + ·) ((mulf_apply _ _ _).trans ?_) (splat_apply bcast_S_S1024 _ _))
  exact congrArg₂ (· * ·) (splat_apply bcast_S_S1024 _ _) (mulf_apply _ _ _)

/-- Wᵀ, entry (k, o). -/
theorem weightsT_apply (k : Fin 1024) (o : Fin 64) : stagedWT m c (ix2 k o) = argW m c (ix2 o k) := by
  have e : stagedWT m c
      = truncf .bf16 (transpose S1024x64 [1, 0] (argW m c) transposes_S64x1024_S1024x64_1_0) bitsLt_bf16_f32 := by
    dsimp only [stagedWT, argW, Gen.V, Gen.hostOps0]; after_results
  rw [e]
  exact (truncf_apply (ψ := .bf16) _ bitsLt_bf16_f32 _).trans (transposed_apply _ _ k o)

/-- The bias as a row, entry (0, o). -/
theorem biasRow_apply (o : Fin 64) : stagedBias m c (ix2 (0 : Fin 1) o) = argB m c (ix1 o) := by
  have e : stagedBias m c = shapeCast S1x64 (argB m c) shapeCasts_S64_S1x64 := by
    dsimp only [stagedBias, argB, Gen.V, Gen.hostOps0]; after_results; rfl
  rw [e]
  exact rowOfVec_apply _ _ 0 o

end Cert.Rbf.HostPrefix

end
-- ==== Proof.RbfBlocks.lean ====
/-
  From the blocks to the array. The grid has 32 points; point t stages rows 2048·t … 2048·t + 2047 of x and the other
  five arrays whole, and writes back rows 2048·t … 2048·t + 2047 of the output. What it writes is the kernel's
  arrangement (`Cert.Rbf.kernelForm`) of the staged arrays restricted to those rows, and the 32 blocks tile the
  output, so after the run the output array is that function everywhere.
-/
import proofs.«156539_j19327352832510_2_alg».proof.Proof.Gen.KernelIdeal.Value
import proofs.«156539_j19327352832510_2_alg».proof.Proof.RbfBody
import proofs.«156539_j19327352832510_2_alg».proof.Proof.RbfSpec
import proofs.«156539_j19327352832510_2_alg».proof.Proof.RbfHostPrefix

set_option maxRecDepth 16384

noncomputable section

open scoped BigOperators

namespace Cert.Rbf.Blocks

open Cert.KernelIdeal Cert.KernelIdeal.Gen Cert.KernelIdeal.Value Idealize.ShloMosaic Idealize.ShloMosaic.TcCoe
  Idealize.ShloMosaic.ValueIdx Idealize.SL.Sem Cert.Rbf.HostPrefix
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The printed index maps over the grid: x and the output move with the point along the rows; the other five
    windows stay at block (0, 0). -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The array row that row p of point t's block is. -/
def row (t : Fin cfg0.N) (p : Fin 2048) : Fin 65536 :=
  ⟨t.val * 2048 + p.val, by have := t.isLt; have h : cfg0.N = 32 := N_0; have := p.isLt; omega⟩

/-! ## The staged blocks -/

/-- x's block at point t holds rows 2048·t + p of x. -/
theorem blockX_apply (c : Dev nD) (t : Fin cfg0.N) (p : Fin 2048) (d : Fin 256) :
    iblk m c 0 t (ix2 p d) = stagedX m c (ix2 (row t p) d) := by
  show V m c main_arg0 (((cfg0.win 0).blk t).view.emb (ix2 p d)) = V m c main_arg0 (ix2 (row t p) d)
  refine congrArg _ (funext fun a => Fin.ext ?_)
  obtain ⟨e0, e1, -⟩ := index_maps t
  match a with
  | ⟨0, _⟩ => show win0_0.index t (0 : Fin 2) * 2048 + 1 * p.val = t.val * 2048 + p.val; omega
  | ⟨1, _⟩ => show win0_0.index t (1 : Fin 2) * 256 + 1 * d.val = d.val; omega

/-- The matrix A is staged whole at every point. -/
theorem blockA_eq (c : Dev nD) (t : Fin cfg0.N) : iblk m c 1 t = stagedA m c := by
  funext y
  show V m c main_v3 (((cfg0.win 1).blk t).view.emb y) = V m c main_v3 y
  refine congrArg _ (funext fun a => Fin.ext ?_)
  obtain ⟨-, -, e0, e1, -⟩ := index_maps t
  match a with
  | ⟨0, _⟩ => show win0_1.index t (0 : Fin 2) * 256 + 1 * (y 0).val = (y 0).val; omega
  | ⟨1, _⟩ => show win0_1.index t (1 : Fin 2) * 1024 + 1 * (y 1).val = (y 1).val; omega

/-- The row of squared centre norms is staged whole at every point. -/
theorem blockNorms_eq (c : Dev nD) (t : Fin cfg0.N) : iblk m c 2 t = stagedNorms m c := by
  funext y
  show V m c main_v6 (((cfg0.win 2).blk t).view.emb y) = V m c main_v6 y
  refine congrArg _ (funext fun a => Fin.ext ?_)
  obtain ⟨-, -, -, -, e0, e1, -⟩ := index_maps t
  match a with
  | ⟨0, _⟩ => show win0_2.index t (0 : Fin 2) * 1 + 1 * (y 0).val = (y 0).val; omega
  | ⟨1, _⟩ => show win0_2.index t (1 : Fin 2) * 1024 + 1 * (y 1).val = (y 1).val; omega

/-- The row of exponent factors is staged whole at every point. -/
theorem blockRecip_eq (c : Dev nD) (t : Fin cfg0.N) : iblk m c 3 t = stagedRecip m c := by
  funext y
  show V m c main_v14 (((cfg0.win 3).blk t).view.emb y) = V m c main_v14 y
  refine congrArg _ (funext fun a => Fin.ext ?_)
  obtain ⟨-, -, -, -, -, -, e0, e1, -⟩ := index_maps t
  match a with
  | ⟨0, _⟩ => show win0_3.index t (0 : Fin 2) * 1 + 1 * (y 0).val = (y 0).val; omega
  | ⟨1, _⟩ => show win0_3.index t (1 : Fin 2) * 1024 + 1 * (y 1).val = (y 1).val; omega

/-- The matrix Wᵀ is staged whole at every point. -/
theorem blockWT_eq (c : Dev nD) (t : Fin cfg0.N) : iblk m c 4 t = stagedWT m c := by
  funext y
  show V m c main_v16 (((cfg0.win 4).blk t).view.emb y) = V m c main_v16 y
  refine congrArg _ (funext fun a => Fin.ext ?_)
  obtain ⟨-, -, -, -, -, -, -, -, e0, e1, -⟩ := index_maps t
  match a with
  | ⟨0, _⟩ => show win0_4.index t (0 : Fin 2) * 1024 + 1 * (y 0).val = (y 0).val; omega
  | ⟨1, _⟩ => show win0_4.index t (1 : Fin 2) * 64 + 1 * (y 1).val = (y 1).val; omega

/-- The bias row is staged whole at every point. -/
theorem blockBias_eq (c : Dev nD) (t : Fin cfg0.N) : iblk m c 5 t = stagedBias m c := by
  funext y
  show V m c main_v17 (((cfg0.win 5).blk t).view.emb y) = V m c main_v17 y
  refine congrArg _ (funext fun a => Fin.ext ?_)
  obtain ⟨-, -, -, -, -, -, -, -, -, -, e0, e1, -⟩ := index_maps t
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- Entry (p, q) of the output's block at point t is entry (2048·t + p, q) of the output array. -/
theorem outIndex (t : Fin cfg0.N) (p : Fin 2048) (q : Fin 64) :
    ((cfg0.win 6).blk t).view.emb (ix2 p q) = ix2 (row t p) q := by
  funext a; apply Fin.ext
  obtain ⟨-, -, -, -, -, -, -, -, -, -, -, -, e0, e1⟩ := index_maps t
  match a with
  | ⟨0, _⟩ => show win0_6.index t (0 : Fin 2) * 2048 + 1 * p.val = t.val * 2048 + p.val; omega
  | ⟨1, _⟩ => show win0_6.index t (1 : Fin 2) * 64 + 1 * q.val = q.val; omega

/-! ## What a point writes back, the cover, and the array after the run -/

/-- WHAT POINT t WRITES BACK is block t of the kernel's arrangement of the staged arrays. -/
theorem flushed_eq (c : Dev nD) (t : Fin cfg0.N) :
    (dats m 0 c).flushed 6 t = ((cfg0.win 6).blk t).view.read (Elt Ideal)
      (Cert.Rbf.kernelForm (stagedX m c) (stagedA m c) (stagedNorms m c) (stagedRecip m c) (stagedWT m c)
        (stagedBias m c)) := by
  rw [flushed6]
  unfold out0_6
  rw [View.canon_unit_zero zero_offsets]
  simp only [View.ld_unit_zero (S := S2048x256) zero_offsets, View.ld_unit_zero (S := S256x1024) zero_offsets,
    View.ld_unit_zero (S := S1x1024) zero_offsets, View.ld_unit_zero (S := S1024x64) zero_offsets,
    View.ld_unit_zero (S := S1x64) zero_offsets]
  rw [blockA_eq, blockNorms_eq, blockRecip_eq, blockWT_eq, blockBias_eq]
  funext j
  obtain ⟨p, q, rfl⟩ : ∃ (p : Fin 2048) (q : Fin 64), j = ix2 p q := ⟨j 0, j 1, eq_ix2 j⟩
  show k0_pay1 (iblk m c 0 t) (stagedA m c) (stagedNorms m c) (stagedRecip m c) (stagedWT m c) (stagedBias m c) (ix2 p q)
    = Cert.Rbf.kernelForm (stagedX m c) (stagedA m c) (stagedNorms m c) (stagedRecip m c) (stagedWT m c)
        (stagedBias m c) (((cfg0.win 6).blk t).view.emb (ix2 p q))
  rw [outIndex, Cert.Rbf.Body.payload_apply]
  simp only [blockX_apply]
  rfl

/-- An index of the output array is in point t's block iff each coordinate is in the block's range on its axis. -/
theorem mem_blk (t : Fin cfg0.N) (i : S65536x64.Idx) :
    i ∈ ((cfg0.win 6).blk t).view.set ↔ ∀ a : Fin 2, win0_6.index t a * S2048x64.size a ≤ (i a).val
      ∧ (i a).val < win0_6.index t a * S2048x64.size a + S2048x64.size a := by
  show i ∈ ((View.whole main_v18).slice (win0_6.rect t)).set ↔ _
  rw [View.set_slice_whole, Rect.mem_set_unit]
  exact Iff.rfl

/-- THE COVER: row r of the output is written back by point r / 2048. -/
theorem cover (i : S65536x64.Idx) :
    ∃ t : Fin cfg0.N, (cfg0.win 6).flush t = true ∧ i ∈ ((cfg0.win 6).blk t).view.set := by
  have hi0 : (i 0).val < 65536 := (i 0).isLt
  have hi1 : (i 1).val < 64 := (i 1).isLt
  have hN : cfg0.N = 32 := N_0
  obtain ⟨t, ht⟩ : ∃ t : Fin cfg0.N, t.val = (i 0).val / 2048 := ⟨⟨(i 0).val / 2048, by omega⟩, rfl⟩
  refine ⟨t, flush0_6 t, ?_⟩
  rw [mem_blk]
  obtain ⟨-, -, -, -, -, -, -, -, -, -, -, -, e0, e1⟩ := index_maps t
  intro a
  match a with
  | ⟨0, _⟩ =>
    show win0_6.index t (0 : Fin 2) * 2048 ≤ (i 0).val ∧ (i 0).val < win0_6.index t (0 : Fin 2) * 2048 + 2048
    omega
  | ⟨1, _⟩ =>
    show win0_6.index t (1 : Fin 2) * 64 ≤ (i 1).val ∧ (i 1).val < win0_6.index t (1 : Fin 2) * 64 + 64
    omega

/-- THE OUTPUT ARRAY AFTER THE RUN is the kernel's arrangement of the staged arrays. -/
theorem final (c : Dev nD) :
    (dats m 0 c).arrAt 6 cfg0.N
      = Cert.Rbf.kernelForm (stagedX m c) (stagedA m c) (stagedNorms m c) (stagedRecip m c) (stagedWT m c)
          (stagedBias m c) :=
  (dats m 0 c).arrAt_eq_of_cover 6 _ (fun t _ => flushed_eq m c t) cover

end Cert.Rbf.Blocks

end
-- ==== Proof.LibAggregateLinear.lean ====
/-
  A linear map commutes with a weighted aggregation, on the extended reals.

  Aggregating rows first and applying a matrix afterwards,
      ∑ k, (∑ e ∈ hits, x e k · a e) · w k ,
  is applying the matrix to every row first and aggregating afterwards,
      ∑ e ∈ hits, (∑ k, x e k · w k) · a e ,
  when every `x e k`, `w k` and `a e` is a real number: over ℝ this is distributivity and an exchange of the two finite sums.
  (With an infinite entry the two sides can differ: distributivity fails at `⊤ + ⊥`.)  The selection of the rows that hit is an
  `if` inside the sum, as a scatter-add read at an index leaves it.

  Also here: the coercion ℝ → EReal commutes with finite sums, and the reciprocal square root of a positive extended real is
  a real number (`⊤ ↦ 0`), so that `if 0 < y then rsqrt (max y ε) else 0` is real for every `y` and `ε`.
-/
import Idealize.ShloMosaic.PureOps.Ideal

noncomputable section

open scoped BigOperators

namespace Idealize.ShloMosaic.AggregateLinear

/-- The coercion of a finite real sum is the sum of the coercions. -/
theorem coe_finset_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is a real number. -/
theorem sum_isReal {ι : Type*} (s : Finset ι) (f : ι → EReal) (hf : ∀ i ∈ s, ∃ r : ℝ, f i = r) : ∃ r : ℝ, ∑ i ∈ s, f i = r := by
  classical
  induction s using Finset.induction_on with
  | empty => exact ⟨0, by simp⟩
  | insert a s ha ih =>
    obtain ⟨r, hr⟩ := ih fun i hi => hf i (Finset.mem_insert_of_mem hi)
    obtain ⟨q, hq⟩ := hf a (Finset.mem_insert_self a s)
    exact ⟨q + r, by rw [Finset.sum_insert ha, hr, hq, EReal.coe_add]⟩

/-- AGGREGATE THEN MAP = MAP THEN AGGREGATE, when every entry is real. -/
theorem aggregate_map_comm {ι κ : Type*} [Fintype ι] [Fintype κ] (x : ι → κ → EReal) (w : κ → EReal) (a : ι → EReal)
    (p : ι → Prop) [DecidablePred p]
    (hx : ∀ e k, ∃ r : ℝ, x e k = r) (hw : ∀ k, ∃ r : ℝ, w k = r) (ha : ∀ e, ∃ r : ℝ, a e = r) :
    ∑ k, (∑ e, if p e then x e k * a e else 0) * w k = ∑ e, if p e then (∑ k, x e k * w k) * a e else 0 := by
  choose X hX using hx
  choose W hW using hw
  choose A hA using ha
  have hl : ∀ k, (∑ e, if p e then x e k * a e else 0) * w k
      = (((∑ e, if p e then X e k * A e else 0) * W k : ℝ) : EReal) := by
    intro k
    rw [EReal.coe_mul, coe_finset_sum, hW]
    refine congrArg (· * (W k : EReal)) (Finset.sum_congr rfl fun e _ => ?_)
    by_cases h : p e
    · rw [if_pos h, if_pos h, hX, hA, EReal.coe_mul]
    · rw [if_neg h, if_neg h, EReal.coe_zero]
  have hr : ∀ e, (if p e then (∑ k, x e k * w k) * a e else 0)
      = (((if p e then (∑ k, X e k * W k) * A e else 0 : ℝ)) : EReal) := by
    intro e
    by_cases h : p e
    · rw [if_pos h, if_pos h, EReal.coe_mul, coe_finset_sum, hA]
      refine congrArg (· * (A e : EReal)) (Finset.sum_congr rfl fun k _ => ?_)
      rw [hX, hW, EReal.coe_mul]
    · rw [if_neg h, if_neg h, EReal.coe_zero]
  simp only [hl, hr, ← coe_finset_sum]
  refine congrArg (fun r : ℝ => (r : EReal)) ?_
  simp only [Finset.sum_mul]
  rw [Finset.sum_comm]
  refine Finset.sum_congr rfl fun e _ => ?_
  by_cases h : p e
  · simp only [if_pos h]
    refine Finset.sum_congr rfl fun k _ => ?_
    ring
  · simp only [if_neg h, zero_mul, Finset.sum_const_zero]

/-- The reciprocal square root of a positive extended real is a real number (`⊤ ↦ 0`). -/
theorem rsqrt_isReal_of_pos (y : EReal) (h : 0 < y) : ∃ r : ℝ, Ideal.rsqrt y = r := by
  induction y using EReal.rec with
  | bot => exact absurd h (not_lt.mpr bot_le)
  | top => exact ⟨0, by rw [Ideal.rsqrt_top, EReal.coe_zero]⟩
  | coe r =>
    have hr : 0 < r := EReal.coe_pos.mp h
    refine ⟨(Real.sqrt r)⁻¹, ?_⟩
    rw [Ideal.rsqrt_coe, if_neg (not_lt.mpr hr.le), if_neg hr.ne']

end Idealize.ShloMosaic.AggregateLinear

end
-- ==== Proof.RbfAlgebra.lean ====
/-
  The one algebraic law that joins the two programs, on the extended reals, for REAL data.

  For a row x and a centre c of D real coordinates and a real width s, with e > 0:
    (Σ x² + Σ x·(-2·c) + (0 + Σ c²)) · ((-1) / (2·s² + e))  =  (-((0 + Σ x²) - 2·Σ x·c + (0 + Σ c²))) / (2·s² + e).
  The left side folds the factor -2 into the cross term and multiplies by a negated reciprocal; the right side is the
  squared distance ‖x - c‖², negated and divided. Moving -2 across the sum and the sign across the quotient are
  distributive steps, which hold because every entry is a real number (on infinities they would not).
-/
import Idealize.ShloMosaic.PureOps.Ideal
import proofs.«156539_j19327352832510_2_alg».proof.Proof.LibAggregateLinear

noncomputable section

open scoped BigOperators

namespace Cert.Rbf

open Idealize.ShloMosaic Idealize.ShloMosaic.AggregateLinear

/-- A finite sum of products of coerced reals is the coerced sum of the products. -/
theorem sum_coe_mul {D : ℕ} (f g : Fin D → ℝ) :
    ∑ d : Fin D, (f d : EReal) * (g d : EReal) = ((∑ d : Fin D, f d * g d : ℝ) : EReal) := by
  rw [coe_finset_sum]
  exact Finset.sum_congr rfl fun d _ => (EReal.coe_mul _ _).symm

/-- The exponent of the radial basis function, in the kernel's arrangement and in the reference's. -/
theorem exponent_eq {D : ℕ} (x c : Fin D → ℝ) (s e : ℝ) (he : 0 < e) :
    (((∑ d : Fin D, (x d : EReal) * (x d : EReal)) + ∑ d : Fin D, (x d : EReal) * (((-2 : ℝ) : EReal) * (c d : EReal)))
        + ((0 : EReal) + ∑ d : Fin D, (c d : EReal) * (c d : EReal)))
      * Ideal.div ((-1 : ℝ) : EReal) (((2 : ℝ) : EReal) * ((s : EReal) * (s : EReal)) + (e : EReal))
    = Ideal.div (-((((0 : EReal) + ∑ d : Fin D, (x d : EReal) * (x d : EReal))
          - ((2 : ℝ) : EReal) * ∑ d : Fin D, (x d : EReal) * (c d : EReal))
        + ((0 : EReal) + ∑ d : Fin D, (c d : EReal) * (c d : EReal))))
      (((2 : ℝ) : EReal) * ((s : EReal) * (s : EReal)) + (e : EReal)) := by
  have hr : (2 * (s * s) + e : ℝ) ≠ 0 := by
    have := mul_self_nonneg s
    exact ne_of_gt (by linarith)
  have hden : ((2 : ℝ) : EReal) * ((s : EReal) * (s : EReal)) + (e : EReal) = ((2 * (s * s) + e : ℝ) : EReal) := by
    rw [EReal.coe_add, EReal.coe_mul, EReal.coe_mul]
  have hcross : ∑ d : Fin D, (x d : EReal) * (((-2 : ℝ) : EReal) * (c d : EReal))
      = ((∑ d : Fin D, x d * (-2 * c d) : ℝ) : EReal) := by
    rw [coe_finset_sum]
    exact Finset.sum_congr rfl fun d _ => by rw [EReal.coe_mul, EReal.coe_mul]
  rw [hden, Ideal.div_coe hr, Ideal.div_coe hr, sum_coe_mul x x, sum_coe_mul c c, sum_coe_mul x c, hcross,
    ← EReal.coe_zero, ← EReal.coe_add, ← EReal.coe_add, ← EReal.coe_add, ← EReal.coe_mul, ← EReal.coe_mul,
    ← EReal.coe_add, ← EReal.coe_mul, ← EReal.coe_sub, ← EReal.coe_add, ← EReal.coe_neg, ← EReal.coe_mul]
  refine congrArg _ ?_
  have h2 : ∑ d : Fin D, x d * (-2 * c d) = -2 * ∑ d : Fin D, x d * c d := by
    rw [Finset.mul_sum]; exact Finset.sum_congr rfl fun d _ => by ring
  rw [h2]; ring

end Cert.Rbf

end
-- ==== Proof.RbfConsts.lean ====
/-
  The float constants the two programs spell, as the extended reals their bit patterns denote: 2, -2, -1, zero, and the
  small positive number added to the doubled squared width (about 1e-8; only its being a positive real is used).
-/
import Idealize.ShloMosaic.PureOps.Ideal

noncomputable section

namespace Cert.Rbf.Consts

open Idealize.ShloMosaic

/-- The pattern of 2.0 denotes the real 2. -/
theorem ofBits_two : Ideal.ofBits .f32 0x40000000#32 = ((2 : ℝ) : EReal) := by
  simp [Ideal.ofBits, Ideal.ieee, -EReal.coe_mul]; norm_num

/-- The pattern of -2.0 denotes the real -2. -/
theorem ofBits_neg_two : Ideal.ofBits .f32 0xC0000000#32 = ((-2 : ℝ) : EReal) := by
  simp [Ideal.ofBits, Ideal.ieee, -EReal.coe_mul]; norm_num

/-- The pattern of -1.0 denotes the real -1. -/
theorem ofBits_neg_one : Ideal.ofBits .f32 0xBF800000#32 = ((-1 : ℝ) : EReal) := by
  simp [Ideal.ofBits, Ideal.ieee, -EReal.coe_mul]; norm_num

/-- The pattern of +0.0 denotes 0. -/
theorem ofBits_zero : Ideal.ofBits .f32 0x00000000#32 = 0 := by
  simp [Ideal.ofBits, Ideal.ieee]

/-- The pattern 0x322BCC77 (the float nearest 1e-8) denotes a positive real: 11258999 · 2^(-50). -/
theorem ofBits_eps : ∃ e : ℝ, 0 < e ∧ Ideal.ofBits .f32 0x322BCC77#32 = (e : EReal) := by
  refine ⟨11258999 * (2 : ℝ) ^ (-50 : ℤ), by positivity, ?_⟩
  simp [Ideal.ofBits, Ideal.ieee, -EReal.coe_mul]

end Cert.Rbf.Consts

end
-- ==== Proof.RbfKernelValue.lean ====
/-
  The kernel's arrangement equals the specification, for real data.

  The six arrays the region stages are x itself and five arrays computed from the centres, the widths, W and the
  bias. Substituting what they hold, entry (n, o) of the kernel's arrangement is
      Σ_k exp( ((Σ_d x² + Σ_d x·(-2·c)) + (0 + Σ_d c²)) · ((-1)/(2σ_k² + ε)) ) · W[o,k] + b[o],
  and the exponent is the specification's -‖x_n - c_k‖²/(2σ_k² + ε) once every entry of x, the centres and the widths
  is a real number. W and the bias enter both sides in the same way and may be anything.
-/
import proofs.«156539_j19327352832510_2_alg».proof.Proof.RbfHostPrefix
import proofs.«156539_j19327352832510_2_alg».proof.Proof.RbfSpec
import proofs.«156539_j19327352832510_2_alg».proof.Proof.RbfAlgebra
import proofs.«156539_j19327352832510_2_alg».proof.Proof.RbfConsts

noncomputable section

open scoped BigOperators

namespace Cert.Rbf.KernelValue

open Cert.KernelIdeal Cert.KernelIdeal.Gen Idealize.ShloMosaic Idealize.ShloMosaic.TcCoe Idealize.ShloMosaic.ValueIdx
  Idealize.SL.Sem Cert.Rbf.HostPrefix

variable (m : (ℓ : Loc nD τ sig) → Buf (Elt Ideal) ℓ) (c : Dev nD)

/-- THE KERNEL'S ARRANGEMENT IS THE SPECIFICATION when x, the centres and the widths hold real numbers. -/
theorem kernelForm_eq_out (hx : ∀ i, ∃ r : ℝ, argX m c i = (r : EReal)) (hc : ∀ i, ∃ r : ℝ, argCentres m c i = (r : EReal))
    (hs : ∀ i, ∃ r : ℝ, argSigma m c i = (r : EReal)) :
    Cert.Rbf.kernelForm (stagedX m c) (stagedA m c) (stagedNorms m c) (stagedRecip m c) (stagedWT m c) (stagedBias m c)
      = Cert.Rbf.out (argX m c) (argCentres m c) (argSigma m c) (argW m c) (argB m c) := by
  funext i
  obtain ⟨n, o, rfl⟩ : ∃ (n : Fin 65536) (o : Fin 64), i = ix2 n o := ⟨i 0, i 1, eq_ix2 i⟩
  show (∑ k : Fin 1024, Ideal.exp ((((∑ d : Fin 256, stagedX m c (ix2 n d) * stagedX m c (ix2 n d))
            + ∑ d : Fin 256, stagedX m c (ix2 n d) * stagedA m c (ix2 d k)) + stagedNorms m c (ix2 (0 : Fin 1) k))
            * stagedRecip m c (ix2 (0 : Fin 1) k)) * stagedWT m c (ix2 k o)) + stagedBias m c (ix2 (0 : Fin 1) o)
      = (∑ k : Fin 1024, Ideal.exp (Ideal.div (-(Cert.Rbf.dist (argX m c) (argCentres m c) n k))
            (Cert.Rbf.width (argSigma m c) k)) * argW m c (ix2 o k)) + argB m c (ix1 o)
  rw [biasRow_apply, stagedX_eq]
  refine congrArg (· + argB m c (ix1 o)) (Finset.sum_congr rfl fun k _ => ?_)
  rw [weightsT_apply]
  refine congrArg (· * argW m c (ix2 o k)) (congrArg Ideal.exp ?_)
  rw [centreNorms_apply, negRecipWidth_apply]
  simp only [scaledCentresT_apply]
  choose xr hxr using fun d : Fin 256 => hx (ix2 n d)
  choose cr hcr using fun d : Fin 256 => hc (ix2 k d)
  obtain ⟨s, hs'⟩ := hs (ix1 k)
  obtain ⟨e, he, hee⟩ := Cert.Rbf.Consts.ofBits_eps
  unfold Cert.Rbf.dist Cert.Rbf.width
  simp only [hxr, hcr, hs', hee, Cert.Rbf.Consts.ofBits_two, Cert.Rbf.Consts.ofBits_neg_two,
    Cert.Rbf.Consts.ofBits_neg_one, Cert.Rbf.Consts.ofBits_zero]
  exact Cert.Rbf.exponent_eq xr cr s e he

end Cert.Rbf.KernelValue

end
-- ==== Proof.LibFiniteEntries.lean ====
/-
  Reading a "every entry is finite" precondition back, on the extended reals, for any shape.

  A precondition conjunct `jnp.all(jnp.abs(a) < inf)` prints as a reduction by `and`, from the constant 1 into a
  scalar, of the comparison of |a| with the splat of the pattern 0x7F800000. That pattern denotes +∞; on the extended
  reals |v| = max v (-v) is below +∞ exactly when v is a real number. So a conjunct that evaluates to 1 says that
  every entry of the array is (the coercion of) a real number.
-/
import Idealize.ShloMosaic.PureOps.Ideal
import Idealize.ShloMosaic.Lib.ReduceAll
import Idealize.ShloMosaic.Lib.Pipeline.Value
import Idealize.ShloMosaic.Lib.ValueIdx

noncomputable section

namespace Cert.Lib.FiniteEntries

open Idealize.ShloMosaic Idealize.ShloMosaic.ValueIdx

/-- The pattern 0x7F800000 denotes +∞. -/
theorem ofBits_inf : Ideal.ofBits .f32 0x7F800000#32 = (⊤ : EReal) := by
  simp [Ideal.ofBits, Ideal.ieee]

/-- An extended real whose absolute value compares below +∞ is a real number. -/
theorem real_of_abs_lt_inf (v : EReal)
    (h : FloatOps.cmpf (F := Ideal) (φ := .f32) .olt (FloatOps.hostAbsf (F := Ideal) (φ := .f32) v)
      (Ideal.ofBits .f32 0x7F800000#32) = 1#1) : ∃ r : ℝ, v = (r : EReal) := by
  rw [ofBits_inf] at h
  have h' : max v (-v) < (⊤ : EReal) := by
    by_contra hn
    have h0 : FloatOps.cmpf (F := Ideal) (φ := .f32) .olt (FloatOps.hostAbsf (F := Ideal) (φ := .f32) v) (⊤ : EReal)
        = 0#1 := by
      show BitVec.ofBool (decide (max v (-v) < (⊤ : EReal))) = 0#1
      rw [decide_eq_false hn]; rfl
    rw [h0] at h
    exact absurd h (by decide)
  induction v using EReal.rec with
  | bot => exact absurd h' (by simp)
  | coe r => exact ⟨r, rfl⟩
  | top => exact absurd h' (by simp)

/-- The scalar shape has one index. -/
instance : Subsingleton (⟨0, ![]⟩ : Shape).Idx := ⟨fun a b => funext fun d => d.elim0⟩

/-- ONE CONJUNCT OF THE PRECONDITION, READ BACK: if the reduction by `and` of "|a| < +∞" over all axes is 1, every
    entry of the array a is a real number. -/
theorem real_of_all {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi (cmpf .olt (Host.absf a)
        (broadcastInDim s ![] hb (constant (F := Ideal) ⟨0, ![]⟩ .f32 0x7F800000#32)))
      (constantI (⟨0, ![]⟩ : Shape) 1 1#1) hr hu ix0 = 1#1) (i : s.Idx) : ∃ r : ℝ, a i = (r : EReal) := by
  have hi := Host.reduce_andi_all _ _ hr hu ix0 e i
  have hs : broadcastInDim s ![] hb (constant (F := Ideal) ⟨0, ![]⟩ .f32 0x7F800000#32) i
      = Ideal.ofBits .f32 0x7F800000#32 := broadcastInDim_apply _ hb _ i ix0 (fun d => d.elim0)
  have h2 : FloatOps.cmpf (F := Ideal) (φ := .f32) .olt (FloatOps.hostAbsf (F := Ideal) (φ := .f32) (a i))
      (broadcastInDim s ![] hb (constant (F := Ideal) ⟨0, ![]⟩ .f32 0x7F800000#32) i) = 1#1 := hi
  rw [hs] at h2
  exact real_of_abs_lt_inf (a i) h2

end Cert.Lib.FiniteEntries

end
-- ==== Proof.RbfFinite.lean ====
/-
  From the precondition to real numbers. The precondition is the conjunction, over the five argument arrays, of
  "every entry's absolute value is below +infinity"; each conjunct says that every entry of its array is a real
  number. The equivalence needs this of x, of the centres and of the widths (it also holds of W and of the bias).
-/
import proofs.«156539_j19327352832510_2_alg».proof.Pre_finite_inputs
import proofs.«156539_j19327352832510_2_alg».proof.Proof.LibFiniteEntries

noncomputable section

namespace Cert.Rbf.Finite

open Idealize.ShloMosaic Idealize.ShloMosaic.ValueIdx Cert.Lib.FiniteEntries

open Cert.Pre_finite_inputs in
/-- THE PRECONDITION, READ: every entry of x, of the centres and of the widths is a real number. -/
theorem reals_of_pre [Cert.Pre_finite_inputs.Facts] (a0 : FVec Ideal S65536x256 .f32) (a1 : FVec Ideal S1024x256 .f32)
    (a2 : FVec Ideal S1024 .f32) (a3 : FVec Ideal S64x1024 .f32) (a4 : FVec Ideal S64 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ix0
  dsimp only [Cert.Pre_finite_inputs.fn, Cert.Pre_finite_inputs.fn_part1] at h0
  obtain ⟨h1, -⟩ := IntOp.andi_eq_one.1 h0
  obtain ⟨h2, -⟩ := IntOp.andi_eq_one.1 h1
  obtain ⟨h3, e2⟩ := IntOp.andi_eq_one.1 h2
  obtain ⟨e0, e1⟩ := IntOp.andi_eq_one.1 h3
  exact ⟨real_of_all a0 _ _ _ e0, real_of_all a1 _ _ _ e1, real_of_all a2 _ _ _ e2⟩

end Cert.Rbf.Finite

end
-- ==== Proof.lean ====
/-
  A radial-basis-function network: out[n, o] = Σ_c exp(-‖x_n - c_c‖² / (2σ_c² + ε)) · W[o, c] + b[o], for
  x [65536, 256], centres [1024, 256], widths σ [1024], W [64, 1024], b [64].

  The reference expands ‖x - c‖² = ‖x‖² - 2⟨x, c⟩ + ‖c‖², negates, divides by 2σ² + ε, exponentiates, contracts with W
  over the centres and adds the bias. The kernel's program first computes on the host A = -2·centresᵀ, the row of
  ‖c‖², the row of (-1)/(2σ² + ε), Wᵀ and the bias as a row; then, over 32 blocks of 2048 rows of x, one kernel
  computes exp((‖x‖² + x·A + ‖c‖²) · ((-1)/(2σ² + ε))) · Wᵀ + b. On the extended reals the roundings to bf16 around the
  two matrix products are the identity and the products are exact sums, so the two programs agree once the factor -2 is
  moved across the sum over the 256 coordinates and the sign across the quotient — distributive steps, valid because
  the precondition makes every entry of x, the centres and the widths a real number (Proof/RbfAlgebra.lean).

  The modules: RbfSpec (the output as one function of the arguments, and the kernel's arrangement of it);
  RbfReference (the reference computes the specification); RbfBody (the kernel body at one entry of its block);
  RbfHostPrefix (the five arrays computed before the region); RbfBlocks (from the 32 blocks to the output array);
  RbfKernelValue with RbfAlgebra and RbfConsts (the kernel's arrangement is the specification on real data); RbfFinite
  (the precondition gives real data). The three frames are the generated frame runs; the idealization rewrote nothing,
  so its claim is trivial.
-/
import proofs.«156539_j19327352832510_2_alg».proof.Defs
import proofs.«156539_j19327352832510_2_alg».proof.Proof.Gen.Kernel
import proofs.«156539_j19327352832510_2_alg».proof.Proof.Gen.Kernel.Skeleton
import proofs.«156539_j19327352832510_2_alg».proof.Proof.Gen.Kernel.Launch
import proofs.«156539_j19327352832510_2_alg».proof.Proof.Gen.Kernel.Points
import proofs.«156539_j19327352832510_2_alg».proof.Proof.Gen.Kernel.Frame
import proofs.«156539_j19327352832510_2_alg».proof.Proof.Gen.KernelIdeal
import proofs.«156539_j19327352832510_2_alg».proof.Proof.Gen.KernelIdeal.Skeleton
import proofs.«156539_j19327352832510_2_alg».proof.Proof.Gen.KernelIdeal.Launch
import proofs.«156539_j19327352832510_2_alg».proof.Proof.Gen.KernelIdeal.Points
import proofs.«156539_j19327352832510_2_alg».proof.Proof.Gen.KernelIdeal.Frame
import proofs.«156539_j19327352832510_2_alg».proof.Proof.Gen.ReferenceIdeal
import proofs.«156539_j19327352832510_2_alg».proof.Proof.Gen.Pre_finite_inputs
import proofs.«156539_j19327352832510_2_alg».proof.Proof.Gen.KernelIdeal.Value
import proofs.«156539_j19327352832510_2_alg».proof.Proof.Gen.ReferenceIdeal.Run
import proofs.«156539_j19327352832510_2_alg».proof.Proof.Gen.ReferenceIdeal.Read
import proofs.«156539_j19327352832510_2_alg».proof.Proof.RbfReference
import proofs.«156539_j19327352832510_2_alg».proof.Proof.RbfBlocks
import proofs.«156539_j19327352832510_2_alg».proof.Proof.RbfKernelValue
import proofs.«156539_j19327352832510_2_alg».proof.Proof.RbfFinite
import Idealize.ShloMosaic.Adequacy
import Idealize.ShloMosaic.Init

noncomputable section

namespace Cert.Proof

open Idealize.ShloMosaic Idealize.ShloMosaic.TcCoe Idealize.SL.Sem

/-- The word-level kernel runs and leaves its arguments: the generated frame. -/
theorem frame_kernel : Cert.frame_Kernel := fun m ρ _ => Cert.Kernel.Gen.frame m ρ

/-- The idealized kernel runs and leaves its arguments: the generated frame. -/
theorem frame_kernelIdeal : Cert.frame_KernelIdeal := fun m ρ _ => Cert.KernelIdeal.Gen.frame m ρ

/-- The reference runs and leaves its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On real data both programs end with the specification's output of their (agreeing) arguments: the kernel's
    output array is its arrangement of the staged arrays (the blocks), which is the specification (the algebra);
    the reference's result is the specification read operation by operation. -/
theorem algebraic : Cert.algebraic_KernelIdeal_ReferenceIdeal := by
  intro m ρ m' ρ' hpre hagree
  refine ⟨fun c => Cert.Rbf.out (Cert.Rbf.HostPrefix.argX m c) (Cert.Rbf.HostPrefix.argCentres m c)
    (Cert.Rbf.HostPrefix.argSigma m c) (Cert.Rbf.HostPrefix.argW m c) (Cert.Rbf.HostPrefix.argB m c), ?_, ?_⟩
  · refine (θ_run Cert.KernelIdeal.defs _ _).mono (fun r h c => ⟨(h c).1.trans ?_, (h c).2⟩)
      (Cert.KernelIdeal.Value.run_blocks (F := Ideal) m ρ)
    obtain ⟨hx, hc, hs⟩ := Cert.Rbf.Finite.reals_of_pre _ _ _ _ _ (hpre c)
    exact (Cert.Rbf.Blocks.final m c).trans (Cert.Rbf.KernelValue.kernelForm_eq_out m c hx hc hs)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v26_eq, Cert.Rbf.Reference.result_eq, (hagree c).1, (hagree c).2.1,
      (hagree c).2.2.1, (hagree c).2.2.2.1, (hagree c).2.2.2.2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
